-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8x4096x16 : Shape := ⟨3, ![8, 4096, 16]⟩
abbrev S8x16x4096 : Shape := ⟨3, ![8, 16, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8x4096x16 : S_.BroadcastsInDim S8x4096x16 (![] : Fin 0 → Fin S8x4096x16.rank)
  reducesTo_S8x4096x16_S_d0_1_2 : S8x4096x16.ReducesTo [0, 1, 2] S_
  bcast_S_S8x16x4096 : S_.BroadcastsInDim S8x16x4096 (![] : Fin 0 → Fin S8x16x4096.rank)
  reducesTo_S8x16x4096_S_d0_1_2 : S8x16x4096.ReducesTo [0, 1, 2] S_

variable [Facts]

def fn_part1 {F : FTy → Type} [FloatOps F] (main_v13 : IVec S_ 1) (main_v16 : IVec S8x16x4096 1) : IVec S_ 1 :=
  let main_c_5 : IVec S_ 1 := constantI S_ 1 1#1
  let main_v17 : IVec S_ 1 := (fun x v => Host.reduce IntOp.andi x v reducesTo_S8x16x4096_S_d0_1_2 h_S_) main_v16 main_c_5
  let main_v18 : IVec S_ 1 := andi main_v13 main_v17
  main_v18

def fn {F : FTy → Type} [FloatOps F] (main_arg0 : FVec F S8192x4096 .f32) (main_arg1 : FVec F S8192x4096 .f32) (main_arg2 : FVec F S8x4096x16 .f32) (main_arg3 : FVec F S8x16x4096 .f32) (main_arg4 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8x4096x16 .f32 := Host.absf main_arg2
  let main_cst_2 : FVec F S_ .f32 := constant S_ .f32 0x7F800000#32
  let main_v10 : FVec F S8x4096x16 .f32 := broadcastInDim S8x4096x16 ![] bcast_S_S8x4096x16 main_cst_2
  let main_v11 : IVec S8x4096x16 1 := cmpf .olt main_v9 main_v10
  let main_c_3 : IVec S_ 1 := constantI S_ 1 1#1
  let main_v12 : IVec S_ 1 := (fun x v => Host.reduce IntOp.andi x v reducesTo_S8x4096x16_S_d0_1_2 h_S_) main_v11 main_c_3
  let main_v13 : IVec S_ 1 := andi main_v8 main_v12
  let main_v14 : FVec F S8x16x4096 .f32 := Host.absf main_arg3
  let main_cst_4 : FVec F S_ .f32 := constant S_ .f32 0x7F800000#32
  let main_v15 : FVec F S8x16x4096 .f32 := broadcastInDim S8x16x4096 ![] bcast_S_S8x16x4096 main_cst_4
  let main_v16 : IVec S8x16x4096 1 := cmpf .olt main_v14 main_v15
  fn_part1 (F := F) main_v13 main_v16
-- ==== Kernel.lean ====
abbrev S8192x4096 : Shape := ⟨2, ![8192, 4096]⟩
abbrev S8x4096x16 : Shape := ⟨3, ![8, 4096, 16]⟩
abbrev S8x16x4096 : Shape := ⟨3, ![8, 16, 4096]⟩
abbrev S8192 : Shape := ⟨1, ![8192]⟩
abbrev S8192x1 : Shape := ⟨2, ![8192, 1]⟩
abbrev S4096x8x16 : Shape := ⟨3, ![4096, 8, 16]⟩
abbrev S4096x128 : Shape := ⟨2, ![4096, 128]⟩
abbrev S128x4096 : Shape := ⟨2, ![128, 4096]⟩
abbrev S256x4096 : Shape := ⟨2, ![256, 4096]⟩
abbrev S256x1 : Shape := ⟨2, ![256, 1]⟩
abbrev S256x128 : Shape := ⟨2, ![256, 128]⟩

abbrev nBuf : Space → Nat
  | .hbm => 12
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8x4096x16, .f32⟩
  | .hbm, ⟨3, _⟩ => ⟨S8x16x4096, .f32⟩
  | .hbm, ⟨4, _⟩ => ⟨S8192, .i32⟩
  | .hbm, ⟨5, _⟩ => ⟨S8192x1, .i32⟩
  | .hbm, ⟨6, _⟩ => ⟨S4096x8x16, .f32⟩
  | .hbm, ⟨7, _⟩ => ⟨S4096x128, .f32⟩
  | .hbm, ⟨8, _⟩ => ⟨S4096x128, .bf16⟩
  | .hbm, ⟨9, _⟩ => ⟨S128x4096, .f32⟩
  | .hbm, ⟨10, _⟩ => ⟨S128x4096, .bf16⟩
  | .hbm, ⟨11, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x1, .i32⟩
  | .local _ .vmem, ⟨5, _⟩ => ⟨S256x1, .i32⟩
  | .local _ .vmem, ⟨6, _⟩ => ⟨S4096x128, .bf16⟩
  | .local _ .vmem, ⟨7, _⟩ => ⟨S128x4096, .bf16⟩
  | .local _ .vmem, ⟨8, _⟩ => ⟨S256x4096, .f32⟩
  | .local _ .vmem, ⟨9, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8192_S8192x1 : S8192.ShapeCasts S8192x1
  transposes_S8x4096x16_S4096x8x16_1_0_2 : S8x4096x16.Transposes [1, 0, 2] S4096x8x16
  shapeCasts_S4096x8x16_S4096x128 : S4096x8x16.ShapeCasts S4096x128
  bitsLt_bf16_f32 : FTy.bits .bf16 < FTy.bits .f32
  shapeCasts_S8x16x4096_S128x4096 : S8x16x4096.ShapeCasts S128x4096
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  iota_S256x128_d1_w32 : S256x128.Iotas .tc 32 [1]
  natLt_1_32 : 1 < 32
  broadcasts_S256x1_S256x128 : S256x1.Broadcasts S256x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  dot_S256x4096_S4096x128_S256x128_1_0_0_1_n_n_wf : DotDims.WF S256x4096 S4096x128 S256x128 [1] [0] [0] [1] [] []
  dot_S256x128_S128x4096_S256x4096_1_0_0_1_n_n_wf : DotDims.WF S256x128 S128x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .i32 = 32 ∨ (Rect.block (s := S8192x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x128.size a
  hwx0_3 : ∀ i : grid0.Coords, EltTy.bits .bf16 = 32 ∨ (Rect.block (s := S4096x128) S4096x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S128x4096.size a
  hwx0_4 : ∀ i : grid0.Coords, EltTy.bits .bf16 = 32 ∨ (Rect.block (s := S128x4096) S128x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S8192x4096.size a
  hwx0_5 : ∀ i : grid0.Coords, EltTy.bits .f32 = 32 ∨ (Rect.block (s := S8192x4096) S256x4096.size (cc0_transform_5 i) (hinb0_5 i)).WholeWords (EltTy.packing .f32)

variable [Facts₀]

def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where
  halias0_5 : Pipeline.Aliased win0 1 5

variable [Facts]
-- ==== ReferenceIdeal.lean ====
abbrev S8192x4096 : Shape := ⟨2, ![8192, 4096]⟩
abbrev S8x4096x16 : Shape := ⟨3, ![8, 4096, 16]⟩
abbrev S8x16x4096 : Shape := ⟨3, ![8, 16, 4096]⟩
abbrev S8192 : Shape := ⟨1, ![8192]⟩
abbrev S_ : Shape := ⟨0, ![]⟩
abbrev S8192x1 : Shape := ⟨2, ![8192, 1]⟩
abbrev S1x4096x16 : Shape := ⟨3, ![1, 4096, 16]⟩
abbrev S4096x16 : Shape := ⟨2, ![4096, 16]⟩
abbrev S8192x16 : Shape := ⟨2, ![8192, 16]⟩
abbrev S1x16x4096 : Shape := ⟨3, ![1, 16, 4096]⟩
abbrev S16x4096 : Shape := ⟨2, ![16, 4096]⟩

abbrev nBuf : Space → Nat
  | .hbm => 117
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8x4096x16, .f32⟩
  | .hbm, ⟨3, _⟩ => ⟨S8x16x4096, .f32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S8192, .f32⟩
  | .hbm, ⟨9, _⟩ => ⟨S8192x1, .f32⟩
  | .hbm, ⟨10, _⟩ => ⟨S1x4096x16, .f32⟩
  | .hbm, ⟨11, _⟩ => ⟨S4096x16, .f32⟩
  | .hbm, ⟨12, _⟩ => ⟨S8192x16, .f32⟩
  | .hbm, ⟨13, _⟩ => ⟨S1x16x4096, .f32⟩
  | .hbm, ⟨14, _⟩ => ⟨S16x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S8192, .f32⟩
  | .hbm, ⟨23, _⟩ => ⟨S8192x1, .f32⟩
  | .hbm, ⟨24, _⟩ => ⟨S1x4096x16, .f32⟩
  | .hbm, ⟨25, _⟩ => ⟨S4096x16, .f32⟩
  | .hbm, ⟨26, _⟩ => ⟨S8192x16, .f32⟩
  | .hbm, ⟨27, _⟩ => ⟨S1x16x4096, .f32⟩
  | .hbm, ⟨28, _⟩ => ⟨S16x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S8192, .f32⟩
  | .hbm, ⟨37, _⟩ => ⟨S8192x1, .f32⟩
  | .hbm, ⟨38, _⟩ => ⟨S1x4096x16, .f32⟩
  | .hbm, ⟨39, _⟩ => ⟨S4096x16, .f32⟩
  | .hbm, ⟨40, _⟩ => ⟨S8192x16, .f32⟩
  | .hbm, ⟨41, _⟩ => ⟨S1x16x4096, .f32⟩
  | .hbm, ⟨42, _⟩ => ⟨S16x4096, .f32⟩
  | .hbm, ⟨43, _⟩ => ⟨S8192x4096, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S_, .i32⟩
  | .hbm, ⟨48, _⟩ => ⟨S8192, .i32⟩
  | .hbm, ⟨49, _⟩ => ⟨S8192, .i1⟩
  | .hbm, ⟨50, _⟩ => ⟨S8192, .f32⟩
  | .hbm, ⟨51, _⟩ => ⟨S8192x1, .f32⟩
  | .hbm, ⟨52, _⟩ => ⟨S1x4096x16, .f32⟩
  | .hbm, ⟨53, _⟩ => ⟨S4096x16, .f32⟩
  | .hbm, ⟨54, _⟩ => ⟨S8192x16, .f32⟩
  | .hbm, ⟨55, _⟩ => ⟨S1x16x4096, .f32⟩
  | .hbm, ⟨56, _⟩ => ⟨S16x4096, .f32⟩
  | .hbm, ⟨57, _⟩ => ⟨S8192x4096, .f32⟩
  | .hbm, ⟨58, _⟩ => ⟨S8192x4096, .f32⟩
  | .hbm, ⟨59, _⟩ => ⟨S8192x4096, .f32⟩
  | .hbm, ⟨60, _⟩ => ⟨S8192x4096, .f32⟩
  | .hbm, ⟨61, _⟩ => ⟨S_, .i32⟩
  | .hbm, ⟨62, _⟩ => ⟨S8192, .i32⟩
  | .hbm, ⟨63, _⟩ => ⟨S8192, .i1⟩
  | .hbm, ⟨64, _⟩ => ⟨S8192, .f32⟩
  | .hbm, ⟨65, _⟩ => ⟨S8192x1, .f32⟩
  | .hbm, ⟨66, _⟩ => ⟨S1x4096x16, .f32⟩
  | .hbm, ⟨67, _⟩ => ⟨S4096x16, .f32⟩
  | .hbm, ⟨68, _⟩ => ⟨S8192x16, .f32⟩
  | .hbm, ⟨69, _⟩ => ⟨S1x16x4096, .f32⟩
  | .hbm, ⟨70, _⟩ => ⟨S16x4096, .f32⟩
  | .hbm, ⟨71, _⟩ => ⟨S8192x4096, .f32⟩
  | .hbm, ⟨72, _⟩ => ⟨S8192x4096, .f32⟩
  | .hbm, ⟨73, _⟩ => ⟨S8192x4096, .f32⟩
  | .hbm, ⟨74, _⟩ => ⟨S8192x4096, .f32⟩
  | .hbm, ⟨75, _⟩ => ⟨S_, .i32⟩
  | .hbm, ⟨76, _⟩ => ⟨S8192, .i32⟩
  | .hbm, ⟨77, _⟩ => ⟨S8192, .i1⟩
  | .hbm, ⟨78, _⟩ => ⟨S8192, .f32⟩
  | .hbm, ⟨79, _⟩ => ⟨S8192x1, .f32⟩
  | .hbm, ⟨80, _⟩ => ⟨S1x4096x16, .f32⟩
  | .hbm, ⟨81, _⟩ => ⟨S4096x16, .f32⟩
  | .hbm, ⟨82, _⟩ => ⟨S8192x16, .f32⟩
  | .hbm, ⟨83, _⟩ => ⟨S1x16x4096, .f32⟩
  | .hbm, ⟨84, _⟩ => ⟨S16x4096, .f32⟩
  | .hbm, ⟨85, _⟩ => ⟨S8192x4096, .f32⟩
  | .hbm, ⟨86, _⟩ => ⟨S8192x4096, .f32⟩
  | .hbm, ⟨87, _⟩ => ⟨S8192x4096, .f32⟩
  | .hbm, ⟨88, _⟩ => ⟨S8192x4096, .f32⟩
  | .hbm, ⟨89, _⟩ => ⟨S_, .i32⟩
  | .hbm, ⟨90, _⟩ => ⟨S8192, .i32⟩
  | .hbm, ⟨91, _⟩ => ⟨S8192, .i1⟩
  | .hbm, ⟨92, _⟩ => ⟨S8192, .f32⟩
  | .hbm, ⟨93, _⟩ => ⟨S8192x1, .f32⟩
  | .hbm, ⟨94, _⟩ => ⟨S1x4096x16, .f32⟩
  | .hbm, ⟨95, _⟩ => ⟨S4096x16, .f32⟩
  | .hbm, ⟨96, _⟩ => ⟨S8192x16, .f32⟩
  | .hbm, ⟨97, _⟩ => ⟨S1x16x4096, .f32⟩
  | .hbm, ⟨98, _⟩ => ⟨S16x4096, .f32⟩
  | .hbm, ⟨99, _⟩ => ⟨S8192x4096, .f32⟩
  | .hbm, ⟨100, _⟩ => ⟨S8192x4096, .f32⟩
  | .hbm, ⟨101, _⟩ => ⟨S8192x4096, .f32⟩
  | .hbm, ⟨102, _⟩ => ⟨S8192x4096, .f32⟩
  | .hbm, ⟨103, _⟩ => ⟨S_, .i32⟩
  | .hbm, ⟨104, _⟩ => ⟨S8192, .i32⟩
  | .hbm, ⟨105, _⟩ => ⟨S8192, .i1⟩
  | .hbm, ⟨106, _⟩ => ⟨S8192, .f32⟩
  | .hbm, ⟨107, _⟩ => ⟨S8192x1, .f32⟩
  | .hbm, ⟨108, _⟩ => ⟨S1x4096x16, .f32⟩
  | .hbm, ⟨109, _⟩ => ⟨S4096x16, .f32⟩
  | .hbm, ⟨110, _⟩ => ⟨S8192x16, .f32⟩
  | .hbm, ⟨111, _⟩ => ⟨S1x16x4096, .f32⟩
  | .hbm, ⟨112, _⟩ => ⟨S16x4096, .f32⟩
  | .hbm, ⟨113, _⟩ => ⟨S8192x4096, .f32⟩
  | .hbm, ⟨114, _⟩ => ⟨S8192x4096, .f32⟩
  | .hbm, ⟨115, _⟩ => ⟨S8192x4096, .f32⟩
  | .hbm, ⟨116, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_c_2 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_c_3 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_c_4 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_c_5 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_c_6 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  slices_S8x4096x16_S1x4096x16_0_0_0 : S8x4096x16.Slices ![0, 0, 0] S1x4096x16
  shapeCasts_S1x4096x16_S4096x16 : S1x4096x16.ShapeCasts S4096x16
  slices_S8x16x4096_S1x16x4096_0_0_0 : S8x16x4096.Slices ![0, 0, 0] S1x16x4096
  shapeCasts_S1x16x4096_S16x4096 : S1x16x4096.ShapeCasts S16x4096
  bcast_S8192x1_S8192x4096_0_1 : S8192x1.BroadcastsInDim S8192x4096 (![0, 1] : Fin 2 → Fin S8192x4096.rank)
  slices_S8x4096x16_S1x4096x16_1_0_0 : S8x4096x16.Slices ![1, 0, 0] S1x4096x16
  slices_S8x16x4096_S1x16x4096_1_0_0 : S8x16x4096.Slices ![1, 0, 0] S1x16x4096
  slices_S8x4096x16_S1x4096x16_2_0_0 : S8x4096x16.Slices ![2, 0, 0] S1x4096x16
  slices_S8x16x4096_S1x16x4096_2_0_0 : S8x16x4096.Slices ![2, 0, 0] S1x16x4096
  slices_S8x4096x16_S1x4096x16_3_0_0 : S8x4096x16.Slices ![3, 0, 0] S1x4096x16
  slices_S8x16x4096_S1x16x4096_3_0_0 : S8x16x4096.Slices ![3, 0, 0] S1x16x4096
  slices_S8x4096x16_S1x4096x16_4_0_0 : S8x4096x16.Slices ![4, 0, 0] S1x4096x16
  slices_S8x16x4096_S1x16x4096_4_0_0 : S8x16x4096.Slices ![4, 0, 0] S1x16x4096
  slices_S8x4096x16_S1x4096x16_5_0_0 : S8x4096x16.Slices ![5, 0, 0] S1x4096x16
  slices_S8x16x4096_S1x16x4096_5_0_0 : S8x16x4096.Slices ![5, 0, 0] S1x16x4096
  slices_S8x4096x16_S1x4096x16_6_0_0 : S8x4096x16.Slices ![6, 0, 0] S1x4096x16
  slices_S8x16x4096_S1x16x4096_6_0_0 : S8x16x4096.Slices ![6, 0, 0] S1x16x4096
  slices_S8x4096x16_S1x4096x16_7_0_0 : S8x4096x16.Slices ![7, 0, 0] S1x4096x16
  slices_S8x16x4096_S1x16x4096_7_0_0 : S8x16x4096.Slices ![7, 0, 0] S1x16x4096
  dot_S8192x4096_S4096x16_S8192x16_1_0_0_1_n_n_wf : DotDims.WF S8192x4096 S4096x16 S8192x16 [1] [0] [0] [1] [] []
  dot_S8192x16_S16x4096_S8192x4096_1_0_0_1_n_n_wf : DotDims.WF S8192x16 S16x4096 S8192x4096 [1] [0] [0] [1] [] []

variable [Facts₀]

def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S8192x16_S16x4096_S8192x4096_1_0_0_1_n_n : DotDims S8192x16 S16x4096 S8192x4096 where
  lhsContracting := [1]
  rhsContracting := [0]
  lhsNonContracting := [0]
  rhsNonContracting := [1]
  lhsBatch := []
  rhsBatch := []
  wf := dot_S8192x16_S16x4096_S8192x4096_1_0_0_1_n_n_wf

class Facts : Prop extends Facts₀ where

variable [Facts]
-- ==== Proof.LibWeightLayouts.lean ====
/-
  Changes of layout of the weight arrays, read at an index written by coordinates.

  A stack of K matrices of I rows and O columns, with its first two axes exchanged and the last two then merged, is the
  matrix of I rows and K · O columns whose entry at row i and column k · O + o is entry (k, i, o) of the stack. The first
  and the last 64 rows of a matrix of 128 rows are its rows a and 64 + a. A scalar broadcast to any shape reads the
  scalar everywhere. A vector laid out as a one-row matrix reads the vector along that row.
-/
import Idealize.ShloMosaic.PureOps.Ideal
import Idealize.ShloMosaic.Lib.ValueIdx
import Idealize.ShloMosaic.Lib.ValueLayout
import Idealize.ShloMosaic.Lib.Pipeline.Value

namespace Cert.LibWeightLayouts

open Idealize.ShloMosaic Idealize.ShloMosaic.ValueIdx

variable {α : Type}

/-- A stack [K, I, O] with the first two axes exchanged, then cast to [I, N] with N = K · O, reads at row i and column c,
    where c = k · O + o, the stack's entry (k, i, o): the cast keeps the row-major position, and
    (i · K + k) · O + o = i · (K · O) + (k · O + o). -/
theorem flatten_apply_gen {K I O N : ℕ} (W : (⟨3, ![K, I, O]⟩ : Shape).Idx → α)
    (h1 : (⟨3, ![K, I, O]⟩ : Shape).Transposes [1, 0, 2] ⟨3, ![I, K, O]⟩)
    (h2 : (⟨3, ![I, K, O]⟩ : Shape).ShapeCasts ⟨2, ![I, N]⟩) (hN : N = K * O)
    (i : Fin I) (k : Fin K) (o : Fin O) (c : Fin N) (hc : c.val = k.val * O + o.val) :
    shapeCast ⟨2, ![I, N]⟩ (transpose ⟨3, ![I, K, O]⟩ [1, 0, 2] W h1) h2 (ix2 i c) = W (ix3 k i o) := by
  refine (shapeCast_apply _ h2 (ix2 i c) (ix3 i k o) ?_).trans ?_
  · rw [Shape.rowMajor_val_three, Shape.rowMajor_val_two]
    show (i.val * K + k.val) * O + o.val = i.val * N + c.val
    rw [hc, hN]; ring
  · exact transpose_apply _ W h1 _ _ fun b => match b with | ⟨0, _⟩ => rfl | ⟨1, _⟩ => rfl | ⟨2, _⟩ => rfl

/-- The 8 weight matrices of 128 rows and 64 columns, flattened to one matrix of 128 rows and 512 columns: the entry at
    row i and column k · 64 + o is entry (k, i, o) of the stack. -/
theorem flatten_apply (W : (⟨3, ![8, 128, 64]⟩ : Shape).Idx → α)
    (h1 : (⟨3, ![8, 128, 64]⟩ : Shape).Transposes [1, 0, 2] ⟨3, ![128, 8, 64]⟩)
    (h2 : (⟨3, ![128, 8, 64]⟩ : Shape).ShapeCasts ⟨2, ![128, 512]⟩) (i : Fin 128) (k : Fin 8) (o : Fin 64) :
    shapeCast ⟨2, ![128, 512]⟩ (transpose ⟨3, ![128, 8, 64]⟩ [1, 0, 2] W h1) h2
        (ix2 i (⟨k.val * 64 + o.val, by omega⟩ : Fin 512)) = W (ix3 k i o) :=
  flatten_apply_gen W h1 h2 (by norm_num) i k o _ rfl

/-- The first 64 rows of a matrix of 128 rows: row a of the cut is row a of the matrix. -/
theorem rows_lo_apply (Wf : (⟨2, ![128, 64]⟩ : Shape).Idx → α)
    (h : (⟨2, ![128, 64]⟩ : Shape).Slices ![0, 0] ⟨2, ![64, 64]⟩) (a b : Fin 64) :
    extractStridedSlice ⟨2, ![64, 64]⟩ ![0, 0] Wf h (ix2 a b) = Wf (ix2 (⟨a.val, by omega⟩ : Fin 128) b) :=
  slice2_axis0_apply 0 Wf h a b _ (Nat.zero_add _).symm

/-- The last 64 rows of a matrix of 128 rows: row a of the cut is row 64 + a of the matrix. -/
theorem rows_hi_apply (Wf : (⟨2, ![128, 64]⟩ : Shape).Idx → α)
    (h : (⟨2, ![128, 64]⟩ : Shape).Slices ![64, 0] ⟨2, ![64, 64]⟩) (a b : Fin 64) :
    extractStridedSlice ⟨2, ![64, 64]⟩ ![64, 0] Wf h (ix2 a b) = Wf (ix2 (⟨64 + a.val, by omega⟩ : Fin 128) b) :=
  slice2_axis0_apply 64 Wf h a b _ rfl

/-- A scalar broadcast to any shape reads, at every index, the scalar. -/
theorem bcast_scalar_apply {s : Shape} (h : (⟨0, ![]⟩ : Shape).BroadcastsInDim s (![] : Fin 0 → Fin s.rank))
    (x : (⟨0, ![]⟩ : Shape).Idx → α) (i : s.Idx) : broadcastInDim s ![] h x i = x ix0 := by
  unfold broadcastInDim
  exact congrArg x (funext fun a => a.elim0)

/-- A vector of 64 entries laid out as a matrix of one row reads, at column j of that row, entry j of the vector. -/
theorem row_of_vec_apply (g : (⟨1, ![64]⟩ : Shape).Idx → α) (h : (⟨1, ![64]⟩ : Shape).ShapeCasts ⟨2, ![1, 64]⟩)
    (j : Fin 64) : shapeCast ⟨2, ![1, 64]⟩ g h (ix2 (0 : Fin 1) j) = g (ix1 j) :=
  shapeCast_a_1a_apply g h 0 j

end Cert.LibWeightLayouts
-- ==== Proof.LibFlatten.lean ====
/-
  Two leading axes merged into one, or one split into two, by a shape cast, read at an index written by coordinates.

  A shape cast keeps the row-major position. Between `[a, b, c]` and `[n, c]` with `n = a · b`, position
  `((i · b) + j) · c + k` is row `r = i · b + j`, column `k`: the cast in either direction pairs `(i, j, k)` with
  `(r, k)`. The merged extent is a separate letter `n` so that the lemmas apply where it is printed as one numeral.
-/
import Idealize.ShloMosaic.Lib.Pipeline.Value
import Idealize.ShloMosaic.Lib.ValueIdx

namespace Cert.LibFlatten

open Idealize.ShloMosaic Idealize.ShloMosaic.ValueIdx

variable {α : Type}

/-- An `[a, b, c]` array cast to `[n, c]` reads, at `(r, k)` with `r = i · b + j`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` array cast to `[a, b, c]` reads, at `(i, j, k)`, the operand at `(r, k)` with `r = i · b + j`. -/
theorem shapeCast_nc_abc_apply {a b c n : ℕ} (y : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ y h (ix3 i j k) = y (ix2 r k) :=
  shapeCast_apply y h _ _ (by
    rw [Shape.rowMajor_val_three, Shape.rowMajor_val_two]
    show r.val * c + k.val = (i.val * b + j.val) * c + k.val
    rw [hr])

end Cert.LibFlatten
-- ==== Proof.LibKeepdims.lean ====
/-
  Layout operations of a `sum(..., keepdims=True)` read at an index written by coordinates.

  A row sum kept as a column is a vector of extent `a` cast to shape `[a, 1]`; a column used against a matrix is
  `[a, 1]` broadcast to `[a, b]`; a total kept as a `[1, 1]` block is a vector of extent `1` cast to `[1, 1]`.
  Each reads its operand at the evident coordinate: the cast keeps the row-major position, the broadcast repeats the
  one column.
-/
import Idealize.ShloMosaic.Lib.Pipeline.Value
import Idealize.ShloMosaic.Lib.ValueIdx

namespace Cert.LibKeepdims

open Idealize.ShloMosaic Idealize.ShloMosaic.ValueIdx

variable {α : Type}

/-- A vector of extent `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector of extent `1` cast to the block shape `[1, 1]` reads its one element, wherever it is read. -/
theorem shapeCast_1_11_apply (x : (⟨1, ![1]⟩ : Shape).Idx → α) (h : (⟨1, ![1]⟩ : Shape).ShapeCasts ⟨2, ![1, 1]⟩)
    (y : (⟨2, ![1, 1]⟩ : Shape).Idx) : shapeCast ⟨2, ![1, 1]⟩ x h y = x (ix1 (0 : Fin 1)) :=
  shapeCast_apply x h _ _ (by
    have h0 : (y 0).val < 1 := idx2_lt0 y
    have h1 : (y 1).val < 1 := idx2_lt1 y
    rw [Shape.rowMajor_val_two, Shape.rowMajor_val_one]
    show (0 : ℕ) = (y 0).val * 1 + (y 1).val
    omega)

/-- The `[1, 1]` block has one index. -/
theorem idx11_eq (y y' : (⟨2, ![1, 1]⟩ : Shape).Idx) : y = y' := by
  funext d
  apply Fin.ext
  match d with
  | ⟨0, _⟩ => show (y 0).val = (y' 0).val; have := idx2_lt0 y; have := idx2_lt0 y'; omega
  | ⟨1, _⟩ => show (y 1).val = (y' 1).val; have := idx2_lt1 y; have := idx2_lt1 y'; omega

end Cert.LibKeepdims
-- ==== Proof.LibIndicator.lean ====
/-
  The indicator of an equality of two numbers, as the programs compute it from 32-bit words.

  A mask such as an identity matrix is computed by comparing a row number with a column number, both 32-bit
  words, and turning the one-bit answer into a float: either widened to 32 bits and read as a signed integer, or read
  directly as an unsigned integer. On the extended reals both are the indicator `[i = k]` (1 if equal, 0 if not), as
  long as the numbers fit in 32 bits. A row number may be given as a tile's first row plus a local row.
-/
import Idealize.ShloMosaic.PureOps.Ideal
import Idealize.ShloMosaic.PureOps.Ideal.Laws

noncomputable section

namespace Cert.Lib.Indicator

open Idealize.ShloMosaic

/-- The indicator of `i = k` as an extended real. -/
def ind (i k : ℕ) : EReal := if i = k then 1 else 0

/-- Two naturals below 2³² are equal iff their 32-bit words are. -/
theorem ofNat_eq_iff (a b : ℕ) (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- The one-bit answer of a word comparison, widened to 32 bits and read as a signed integer, is 1 or 0. -/
theorem signed_bit (a b : BitVec 32) :
    ((((BitVec.ofBool (a == b)).setWidth 32).toInt : ℝ) : EReal) = if a = b then 1 else 0 := by
  by_cases h : a = b
  · subst h
    rw [if_pos rfl, beq_self_eq_true]
    show ((((1#1 : BitVec 1).setWidth 32).toInt : ℝ) : EReal) = 1
    rw [show ((1#1 : BitVec 1).setWidth 32).toInt = 1 by decide]
    simp
  · rw [if_neg h, show (a == b) = false from beq_false_of_ne h]
    show ((((0#1 : BitVec 1).setWidth 32).toInt : ℝ) : EReal) = 0
    rw [show ((0#1 : BitVec 1).setWidth 32).toInt = 0 by decide]
    simp

/-- The same answer read directly as an unsigned integer is 1 or 0 too. -/
theorem unsigned_bit (a b : BitVec 32) :
    (((BitVec.ofBool (a == b)).toNat : ℝ) : EReal) = if a = b then 1 else 0 := by
  by_cases h : a = b
  · subst h
    rw [if_pos rfl, beq_self_eq_true]
    show ((((1#1 : BitVec 1)).toNat : ℝ) : EReal) = 1
    rw [show ((1#1 : BitVec 1)).toNat = 1 by decide]
    simp
  · rw [if_neg h, show (a == b) = false from beq_false_of_ne h]
    show ((((0#1 : BitVec 1)).toNat : ℝ) : EReal) = 0
    rw [show ((0#1 : BitVec 1)).toNat = 0 by decide]
    simp

/-- Row `ro + r` (a tile's first row plus a local row, added as words) against column `k`, the answer widened and read
    signed: the indicator of `ro + r = k`. -/
theorem ind_of_signed (ro r k : ℕ) (h : ro + r < 2 ^ 32) (hk : k < 2 ^ 32) :
    FloatOps.sitofp (F := Ideal) .f32
        ((IntOp.cmpi .eq (IntOp.addi (BitVec.ofNat 32 ro) (BitVec.ofNat 32 r)) (BitVec.ofNat 32 k)).setWidth 32)
      = ind (ro + r) k := by
  show ((((BitVec.ofBool (BitVec.ofNat 32 ro + BitVec.ofNat 32 r == BitVec.ofNat 32 k)).setWidth 32).toInt : ℝ) : EReal) = _
  rw [signed_bit, ← BitVec.ofNat_add]
  unfold ind
  by_cases e : ro + r = k
  · rw [if_pos e, if_pos ((ofNat_eq_iff _ _ h hk).2 e)]
  · rw [if_neg e, if_neg (fun h' => e ((ofNat_eq_iff _ _ h hk).1 h'))]

/-- Row `i` (with a zero word added, as an identity matrix with no offset is written) against column `k`, the answer
    read unsigned: the indicator of `i = k`. -/
theorem ind_of_unsigned (i k : ℕ) (hi : i < 2 ^ 32) (hk : k < 2 ^ 32) :
    FloatOps.uitofp (F := Ideal) .f32 (IntOp.cmpi .eq (IntOp.addi (BitVec.ofNat 32 i) 0#32) (BitVec.ofNat 32 k))
      = ind i k := by
  show ((((BitVec.ofBool (BitVec.ofNat 32 i + 0#32 == BitVec.ofNat 32 k))).toNat : ℝ) : EReal) = _
  rw [unsigned_bit, BitVec.add_zero]
  unfold ind
  by_cases e : i = k
  · rw [if_pos e, if_pos ((ofNat_eq_iff _ _ hi hk).2 e)]
  · rw [if_neg e, if_neg (fun h' => e ((ofNat_eq_iff _ _ hi hk).1 h'))]

end Cert.Lib.Indicator

end
-- ==== Proof.LoraMask.lean ====
/-
  The adapter mask of one stacked position, on the extended reals.

  Position `k` of the 128 stacked rank columns belongs to adapter `k / 16`. The kernel computes that number from the
  position's 32-bit word by a signed division rounded toward zero, lowered by one when the operands' signs differ and the
  remainder is not zero (floor division); for the positions 0 … 127 this is `k / 16`, checked position by position. The
  mask entry is the one-bit answer of comparing that number with the token's adapter word, widened and read as a signed
  integer: 1 if they are equal, 0 if not. The reference compares the token's adapter word with a literal adapter number
  and reads the one-bit answer unsigned: the same indicator.
-/
import Idealize.ShloMosaic.PureOps.Ideal
import Idealize.ShloMosaic.PureOps.Ideal.Laws
import proofs.«164024_j14139032338753_2_alg».proof.Proof.LibIndicator

noncomputable section

namespace Cert.LoraMask

open Idealize.ShloMosaic

/-- The indicator that a token's adapter word `a` names adapter `n`. -/
def sel (a : BitVec 32) (n : Fin 8) : EReal := if a = BitVec.ofNat 32 n.val then 1 else 0

theorem sel_zero_or_one (a : BitVec 32) (n : Fin 8) : sel a n = 0 ∨ sel a n = 1 := by
  unfold sel
  split
  · exact Or.inr rfl
  · exact Or.inl rfl

/-- Floor division by 16 of a 32-bit word, as the kernel spells it: the quotient rounded toward zero, minus one when the
    signs of the word and of 16 differ and the remainder is not zero. -/
def group (w : BitVec 32) : BitVec 32 :=
  Scalar.select
    (IntOp.andi
      (IntOp.cmpi .ne
        (IntOp.subi ((IntOp.cmpi .sgt w 0#32).setWidth 32) ((IntOp.cmpi .slt w 0#32).setWidth 32))
        (Scalar.subi (Scalar.extui (Scalar.cmpi .sgt 16#32 0#32)) (Scalar.extui (Scalar.cmpi .slt 16#32 0#32))))
      (IntOp.cmpi .ne (IntOp.remsi .vector w 16#32) 0#32))
    (IntOp.subi (IntOp.divsi .vector w 16#32) 1#32)
    (IntOp.divsi .vector w 16#32)

/-- On the positions 0 … 127 it is the natural-number quotient (evaluated position by position). -/
theorem group_eq : ∀ k : Fin 128, group (BitVec.ofNat 32 k.val) = BitVec.ofNat 32 (k.val / 16) := by
  decide +kernel

/-- The kernel's mask entry at stacked position `i * 16 + r` for a token with adapter word `a`: the indicator of adapter `i`. -/
theorem kernel_mask (a : BitVec 32) (i : Fin 8) (r : Fin 16) (k : Fin 128) (hk : k.val = i.val * 16 + r.val) :
    FloatOps.sitofp (F := Ideal) .f32 ((IntOp.cmpi .eq (group (BitVec.ofNat 32 k.val)) a).setWidth 32) = sel a i := by
  have hq : k.val / 16 = i.val := by have := r.isLt; omega
  rw [group_eq k, hq]
  show ((((BitVec.ofBool (BitVec.ofNat 32 i.val == a)).setWidth 32).toInt : ℝ) : EReal) = _
  rw [Cert.Lib.Indicator.signed_bit]
  unfold sel
  exact if_congr eq_comm rfl rfl

/-- The reference's mask entry for adapter `i` (its literal word `w`): the same indicator. -/
theorem host_mask (a w : BitVec 32) (i : Fin 8) (hw : w = BitVec.ofNat 32 i.val) :
    FloatOps.uitofp (F := Ideal) .f32 (IntOp.cmpi .eq a w) = sel a i := by
  subst hw
  show (((BitVec.ofBool (a == BitVec.ofNat 32 i.val)).toNat : ℝ) : EReal) = _
  rw [Cert.Lib.Indicator.unsigned_bit]
  rfl

end Cert.LoraMask

end
-- ==== Proof.LoraAlgebra.lean ====
/-
  The algebra joining two arrangements of a low-rank update chosen by an adapter number.

  One arrangement stacks the 8 adapters' 16 rank columns into 128 positions, position `i * 16 + r` being rank column `r`
  of adapter `i`, multiplies each position's shrunk value by a 0/1 mask and sums the 128 products against the stacked
  expand rows. The other takes the adapters one at a time: it sums the 16 products of one adapter and multiplies that sum
  by the adapter's 0/1 mask, adding the eight results one after the other onto the starting value.

  Three facts make them equal on the extended reals, none of which needs a finite entry: a sum over the 128 positions is
  the sum over adapters of the sums over rank columns; a factor that is 0 or 1 moves across a finite sum of products
  (times 1 changes nothing, times 0 gives 0 even at an infinity); and eight additions nested to the left are the starting
  value plus the sum of the eight terms (addition of extended reals is associative and commutative).
-/
import Idealize.ShloMosaic.PureOps.Ideal

namespace Cert.LoraAlgebra

open scoped BigOperators

/-- A sum over the 128 stacked positions, adapter by adapter: position `i * 16 + r` is rank column `r` of adapter `i`. -/
theorem sum_stacked {M : Type*} [AddCommMonoid M] (f : Fin 128 → M) :
    ∑ k : Fin 128, f k
      = ∑ i : Fin 8, ∑ r : Fin 16, f ⟨i.val * 16 + r.val, by have := i.isLt; have := r.isLt; omega⟩ := by
  rw [← Equiv.sum_comp (finProdFinEquiv : Fin 8 × Fin 16 ≃ Fin (8 * 16)) f, Fintype.sum_prod_type]
  refine Finset.sum_congr rfl fun i _ => Finset.sum_congr rfl fun r _ => congrArg f (Fin.ext ?_)
  show r.val + 16 * i.val = i.val * 16 + r.val
  omega

/-- A factor that is 0 or 1 moves across a finite sum of products, on every extended real. -/
theorem sum_mul_mask {ι : Type*} [Fintype ι] (v b : ι → EReal) (μ : EReal) (hμ : μ = 0 ∨ μ = 1) :
    ∑ r, (v r * μ) * b r = (∑ r, v r * b r) * μ := by
  rcases hμ with rfl | rfl
  · simp only [mul_zero, zero_mul, Finset.sum_const_zero]
  · simp only [mul_one]

/-- Eight additions nested to the left are the starting value plus the sum of the eight terms. -/
theorem nested_eight {M : Type*} [AddCommMonoid M] (z : M) (c : Fin 8 → M) :
    z + c 0 + c 1 + c 2 + c 3 + c 4 + c 5 + c 6 + c 7 = z + ∑ i : Fin 8, c i := by
  rw [Fin.sum_univ_eight]
  simp only [add_assoc]

/-- The stacked arrangement is the adapter-by-adapter one: if the summand at position `i * 16 + r` is the shrunk value
    `v i r` times the adapter's mask `μ i` times the expand entry `b i r`, the sum over the 128 positions is the sum over
    adapters of the adapter's own 16-term sum times its mask. -/
theorem stacked_eq_selected (f : Fin 128 → EReal) (v b : Fin 8 → Fin 16 → EReal) (μ : Fin 8 → EReal)
    (hμ : ∀ i, μ i = 0 ∨ μ i = 1)
    (hf : ∀ (i : Fin 8) (r : Fin 16) (k : Fin 128), k.val = i.val * 16 + r.val → f k = (v i r * μ i) * b i r) :
    ∑ k : Fin 128, f k = ∑ i : Fin 8, (∑ r : Fin 16, v i r * b i r) * μ i := by
  rw [sum_stacked]
  refine Finset.sum_congr rfl fun i _ => ?_
  rw [← sum_mul_mask (v i) (b i) (μ i) (hμ i)]
  exact Finset.sum_congr rfl fun r _ => hf i r _ rfl

end Cert.LoraAlgebra
-- ==== Proof.LoraSpec.lean ====
/-
  The result both programs compute, as one function of the argument arrays.

  For token row `t` and output column `o`, the result is the entry of `result` plus, over the 8 adapters `n`, the
  low-rank product `∑ r, (∑ h, x(t, h) · A(n, h, r)) · B(n, r, o)` times the indicator that the token's adapter word names
  adapter `n`. A token whose adapter word names none of the 8 adapters keeps its `result` entry.

  Two readings of that function: one whose update is a single sum over the 128 stacked positions `i · 16 + r`, each
  term masked before the expand product, and one that adds the eight masked adapter products one after the other.
-/
import Idealize.ShloMosaic.Lib.ValueIdx
import proofs.«164024_j14139032338753_2_alg».proof.Proof.LoraAlgebra
import proofs.«164024_j14139032338753_2_alg».proof.Proof.LoraMask

noncomputable section

namespace Cert.LoraSpec

open Idealize.ShloMosaic Idealize.ShloMosaic.ValueIdx Cert.LoraMask
open scoped BigOperators

variable (res x : (⟨2, ![8192, 4096]⟩ : Shape).Idx → EReal) (A : (⟨3, ![8, 4096, 16]⟩ : Shape).Idx → EReal)
  (B : (⟨3, ![8, 16, 4096]⟩ : Shape).Idx → EReal) (idx : (⟨1, ![8192]⟩ : Shape).Idx → BitVec 32)

/-- The shrunk value of token `t` for adapter `n`, rank column `r`. -/
def shrink (t : Fin 8192) (n : Fin 8) (r : Fin 16) : EReal := ∑ h : Fin 4096, x (ix2 t h) * A (ix3 n h r)

/-- The result at token row `t`, output column `o`. -/
def updateAt (t : Fin 8192) (o : Fin 4096) : EReal :=
  res (ix2 t o) + ∑ n : Fin 8, (∑ r : Fin 16, shrink x A t n r * B (ix3 n r o)) * sel (idx (ix1 t)) n

/-- The result array. -/
def update : (⟨2, ![8192, 4096]⟩ : Shape).Idx → EReal := fun i => updateAt res x A B idx (i 0) (i 1)

theorem update_apply (t : Fin 8192) (o : Fin 4096) : update res x A B idx (ix2 t o) = updateAt res x A B idx t o := rfl

/-- The stacked reading: the `result` entry plus ONE sum over the 128 stacked positions, whose term at position
    `i · 16 + r` is the shrunk value times the mask of adapter `i`, times the expand entry. -/
theorem stacked_row (t : Fin 8192) (o : Fin 4096) (f : Fin 128 → EReal)
    (hf : ∀ (i : Fin 8) (r : Fin 16) (k : Fin 128), k.val = i.val * 16 + r.val →
      f k = (shrink x A t i r * sel (idx (ix1 t)) i) * B (ix3 i r o)) :
    res (ix2 t o) + ∑ k : Fin 128, f k = updateAt res x A B idx t o := by
  unfold updateAt
  rw [Cert.LoraAlgebra.stacked_eq_selected f (fun i r => shrink x A t i r) (fun i r => B (ix3 i r o))
    (fun i => sel (idx (ix1 t)) i) (fun i => sel_zero_or_one _ i) hf]

/-- The adapter-by-adapter reading: the eight masked adapter products added one after the other onto the `result` entry. -/
theorem nested_row (t : Fin 8192) (o : Fin 4096) (c : Fin 8 → EReal)
    (hc : ∀ n : Fin 8, c n = (∑ r : Fin 16, shrink x A t n r * B (ix3 n r o)) * sel (idx (ix1 t)) n) :
    res (ix2 t o) + c 0 + c 1 + c 2 + c 3 + c 4 + c 5 + c 6 + c 7 = updateAt res x A B idx t o := by
  rw [Cert.LoraAlgebra.nested_eight]
  unfold updateAt
  exact congrArg (res (ix2 t o) + ·) (Finset.sum_congr rfl fun n _ => hc n)

end Cert.LoraSpec

end
-- ==== Proof.LibMatmulPlain.lean ====
/-
  A plain matrix product read at an index written by coordinates.

  For the dimension numbers "rows × contraction times contraction × columns" (`DotDims.plain M K N`: the left operand
  `[M, K]` contracted on its last axis against the first axis of the right operand `[K, N]`, no batch axis), a
  `tpu.matmul` into the zero accumulator, read on the extended reals at `(r, c)`, is the sum over `k` of the left
  operand at `(r, k)` times the right operand at `(k, c)`: the library reads the product as a sum over the dot's own
  contraction index, whose operand indices are named coordinate by coordinate here, and the one-axis contraction index
  is exchanged for `Fin K`.
-/
import Idealize.ShloMosaic.PureOps.Ideal.Laws
import Idealize.ShloMosaic.Lib.ValueIdx

namespace Cert.LibMatmulPlain

open Idealize.ShloMosaic Idealize.ShloMosaic.ValueIdx

variable {M K N : ℕ}

/-- The left operand's index keeps the output's row. -/
theorem lhsIdx_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's index takes the contraction position as its column. -/
theorem lhsIdx_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's index takes the contraction position as its row. -/
theorem rhsIdx_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's index keeps the output's column. -/
theorem rhsIdx_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- A plain `[M, K] × [K, N]` product into the zero accumulator, at `(r, c)`: `∑ k, L (r, k) · R (k, c)`. -/
theorem matmul_plain_zero_apply {φ₁ φ₂ : FTy} (prec : Option ContractPrecision)
    (L : FVec Ideal ⟨2, ![M, K]⟩ φ₁) (R : FVec Ideal ⟨2, ![K, N]⟩ φ₂) (r : Fin M) (c : Fin N) :
    FloatOps.matmul (DotDims.plain M K N) prec L R (constant ⟨2, ![M, N]⟩ .f32 0x00000000#32) (ix2 r c)
      = ∑ k : Fin K, L (ix2 r k) * R (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhsIdx_row _ _
      | ⟨1, _⟩ => exact (lhsIdx_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhsIdx_row _ _).trans hk
      | ⟨1, _⟩ => exact rhsIdx_col _ _)
  rw [el, er]

end Cert.LibMatmulPlain
-- ==== Proof.LoraBody.lean ====
/-
  What the kernel body stores, read at one entry of the output block.

  At a grid point the body holds a block of 256 token rows: the rows' activations `x0` (256 × 4096), their `result`
  entries `x1` (256 × 4096), their adapter words `x2` (a 256 × 1 column), and the two stacked weight matrices, `x3`
  (4096 × 128, every adapter's shrink columns side by side) and `x4` (128 × 4096, every adapter's expand rows one under
  the other). It stores, at row `p` and column `o`,

      x1(p, o) + ∑ k < 128, ((∑ h < 4096, x0(p, h) · x3(h, k)) · mask(p, k)) · x4(k, o),

  where `mask(p, k)` is 1 if stacked position `k` belongs to the adapter that row `p`'s adapter word names and 0 if not.
  On the extended reals each matrix product into a zero accumulator is the plain sum of products, a change of float
  format is the identity, and the mask is read lane by lane from the position's own number.
-/
import proofs.«164024_j14139032338753_2_alg».proof.Proof.Gen.KernelIdeal.Skeleton
import Idealize.ShloMosaic.Lib.ValueIdx
import Idealize.ShloMosaic.Lib.Pipeline.Value
import Idealize.ShloMosaic.PureOps.Ideal.Laws
import proofs.«164024_j14139032338753_2_alg».proof.Proof.LibMatmulPlain
import proofs.«164024_j14139032338753_2_alg».proof.Proof.LibKeepdims
import proofs.«164024_j14139032338753_2_alg».proof.Proof.LoraMask

noncomputable section

namespace Cert.LoraBody

open Cert.KernelIdeal Cert.KernelIdeal.Gen Idealize.ShloMosaic Idealize.ShloMosaic.ValueIdx Cert.LoraMask
open scoped BigOperators

/-- The mask entry of stacked position `k` for a row whose adapter word is `a`. -/
def maskAt (a : BitVec 32) (k : Fin 128) : EReal :=
  FloatOps.sitofp (F := Ideal) .f32 ((IntOp.cmpi .eq (group (BitVec.ofNat 32 k.val)) a).setWidth 32)

/-- Both of the body's products are plain ones: rows × contraction times contraction × columns. -/
theorem shrink_dims : dot_S256x4096_S4096x128_S256x128_1_0_0_1_n_n = DotDims.plain 256 4096 128 := rfl
theorem expand_dims : dot_S256x128_S128x4096_S256x4096_1_0_0_1_n_n = DotDims.plain 256 128 4096 := rfl

/-- The position counter along the stacked axis reads, at row `p` and position `k`, the number `k`. -/
theorem lane_word (h : S256x128.Iotas .tc 32 [1]) (p : Fin 256) (k : Fin 128) :
    iota .tc S256x128 32 [1] h (ix2 p k) = BitVec.ofNat 32 k.val := by
  show BitVec.ofNat 32 (0 * 128 + k.val) = _
  rw [Nat.zero_mul, Nat.zero_add]

/-- The adapter-word column, spread along the 128 positions, reads at `(p, k)` the word of row `p`. -/
theorem word_of_row (x2 : IVec S256x1 32) (hs : S256x1.ShapeCasts S256x1) (hb : S256x1.Broadcasts S256x128)
    (p : Fin 256) (k : Fin 128) :
    broadcastTo S256x128 (shapeCast S256x1 x2 hs) hb (ix2 p k) = x2 (ix2 p (0 : Fin 1)) := by
  rw [shapeCast_self]
  exact Cert.LibKeepdims.broadcastTo_a1_ab_apply x2 hb p k

/-- The stored value at row `p`, column `o` of the block. -/
theorem payload_apply (x0 x1 : FVec Ideal S256x4096 .f32) (x2 : IVec S256x1 32) (x3 : FVec Ideal S4096x128 .bf16)
    (x4 : FVec Ideal S128x4096 .bf16) (p : Fin 256) (o : Fin 4096) :
    k0_pay1 (F := Ideal) (k0_pay2 (F := Ideal) x0 x2 x3 x4) x1 (ix2 p o)
      = x1 (ix2 p o) + ∑ k : Fin 128,
          ((∑ h : Fin 4096, x0 (ix2 p h) * x3 (ix2 h k)) * maskAt (x2 (ix2 p (0 : Fin 1))) k) * x4 (ix2 k o) := by
  unfold k0_pay1 k0_pay2
  refine (congrArg (x1 (ix2 p o) + ·) (Cert.LibMatmulPlain.matmul_plain_zero_apply none _ _ p o)).trans ?_
  refine congrArg (x1 (ix2 p o) + ·) (Finset.sum_congr rfl fun k _ => ?_)
  refine congrArg₂ (· * ·) ?_ (congrFun (shapeCast_self x4 _) (ix2 k o))
  refine (mulf_apply (s := S256x128) (φ := .f32) _ _ (ix2 p k)).trans ?_
  refine congrArg₂ (· * ·) ?_ ?_
  · refine (Cert.LibMatmulPlain.matmul_plain_zero_apply none _ _ p k).trans ?_
    exact Finset.sum_congr rfl fun h _ => congrArg (x0 (ix2 p h) * ·) (congrFun (shapeCast_self x3 _) (ix2 h k))
  · show FloatOps.sitofp (F := Ideal) .f32
        ((IntOp.cmpi .eq (group (iota .tc S256x128 32 [1] _ (ix2 p k)))
          (broadcastTo S256x128 (shapeCast S256x1 x2 _) _ (ix2 p k))).setWidth 32) = _
    rw [lane_word, word_of_row]
    rfl

end Cert.LoraBody

end
-- ==== Proof.LoraBlocks.lean ====
/-
  From blocks to the whole result array of the kernel.

  The grid has 32 points; point `t` works on token rows `256·t … 256·t + 255`. Its activation, `result` and adapter-word
  blocks are those rows of the arrays; the two stacked weight matrices are one block each, the same at every point, and
  were laid out by the host before the launch: column `i·16 + r` of the stacked shrink matrix is rank column `r` of
  adapter `i`, and row `i·16 + r` of the stacked expand matrix is rank row `r` of adapter `i` (a change of float format on
  the way is the identity on the extended reals). So what point `t` writes back at row `p`, column `o` is the
  specification at token row `256·t + p`: its update is the specification's stacked reading. Row `r` of the array is in
  the block of point `r / 256`, so the 32 written blocks cover the array, and the array ends holding the specification.
-/
import proofs.«164024_j14139032338753_2_alg».proof.Proof.Gen.KernelIdeal.Value
import Idealize.ShloMosaic.Lib.Pipeline.Value
import Idealize.ShloMosaic.Lib.ValueIdx
import Idealize.ShloMosaic.Lib.StableHlo.Run
import proofs.«164024_j14139032338753_2_alg».proof.Proof.LibWeightLayouts
import proofs.«164024_j14139032338753_2_alg».proof.Proof.LibFlatten
import proofs.«164024_j14139032338753_2_alg».proof.Proof.LibKeepdims
import proofs.«164024_j14139032338753_2_alg».proof.Proof.LoraMask
import proofs.«164024_j14139032338753_2_alg».proof.Proof.LoraSpec
import proofs.«164024_j14139032338753_2_alg».proof.Proof.LoraBody

noncomputable section

namespace Cert.LoraBlocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.LoraMask Cert.LoraSpec Cert.LoraBody
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-- The block index of every window at point `t`: the three row windows and the output are at row block `t`, the two
    weight windows at their one block (decided over the 32 points). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block is token row `256·t + p`. -/
def rowOf (t : Fin cfg0.N) (p : Fin 256) : Fin 8192 :=
  ⟨t.val * 256 + p.val, by have := lt_of_lt_of_eq t.isLt N_0; have := p.isLt; omega⟩

/-! ## The arrays the host prepared before the launch -/

/-- The adapter words as a column. -/
theorem V_words (c : Dev nD) (h : S8192.ShapeCasts S8192x1) :
    (V m c main_v0 : S8192x1.Idx → BitVec 32) = shapeCast S8192x1 (m ((c : Thread nD τ).loc main_arg4)) h := by
  dsimp only [Gen.V, Gen.hostOps0]
  after_results
  rfl

/-- The stacked shrink matrix. -/
theorem V_stackA (c : Dev nD) (h1 : S8x4096x16.Transposes [1, 0, 2] S4096x8x16) (h2 : S4096x8x16.ShapeCasts S4096x128)
    (hb : FTy.bits .bf16 < FTy.bits .f32) :
    (V m c main_v3 : S4096x128.Idx → EReal)
      = (truncf (F := Ideal) .bf16 (shapeCast S4096x128 (transpose S4096x8x16 [1, 0, 2]
          (m ((c : Thread nD τ).loc main_arg2) : FVec Ideal S8x4096x16 .f32) h1) h2) hb : S4096x128.Idx → EReal) := by
  dsimp only [Gen.V, Gen.hostOps0]
  after_results
  rfl

/-- The stacked expand matrix. -/
theorem V_stackB (c : Dev nD) (h : S8x16x4096.ShapeCasts S128x4096) (hb : FTy.bits .bf16 < FTy.bits .f32) :
    (V m c main_v5 : S128x4096.Idx → EReal)
      = (truncf (F := Ideal) .bf16 (shapeCast S128x4096 (m ((c : Thread nD τ).loc main_arg3) : FVec Ideal S8x16x4096 .f32) h) hb
          : S128x4096.Idx → EReal) := by
  dsimp only [Gen.V, Gen.hostOps0]
  after_results
  rfl

/-! ## The blocks of point `t`, read at coordinates -/

/-- The activation block: rows `256·t + p` of `x`. -/
theorem blk_x (c : Dev nD) (t : Fin cfg0.N) (p : Fin 256) (h : Fin 4096) :
    (iblk m c 0 t : S256x4096.Idx → EReal) (ix2 p h)
      = (m ((c : Thread nD τ).loc main_arg1) : S8192x4096.Idx → EReal) (ix2 (rowOf t p) h) := by
  obtain ⟨e0, e1, -⟩ := idx_facts t
  rw [← V_main_arg1 m c]
  show V m c main_arg1 (((cfg0.win 0).blk t).view.emb (ix2 p h)) = V m c main_arg1 (ix2 (rowOf t p) h)
  refine congrArg (V m c main_arg1 : S8192x4096.Idx → EReal) (funext fun a => Fin.ext ?_)
  match a with
  | ⟨0, _⟩ => show win0_0.index t (0 : Fin 2) * 256 + 1 * p.val = t.val * 256 + p.val; rw [e0]; omega
  | ⟨1, _⟩ => show win0_0.index t (1 : Fin 2) * 4096 + 1 * h.val = h.val; rw [e1]; omega

/-- The `result` block: rows `256·t + p` of `result`. -/
theorem blk_res (c : Dev nD) (t : Fin cfg0.N) (p : Fin 256) (o : Fin 4096) :
    (iblk m c 1 t : S256x4096.Idx → EReal) (ix2 p o)
      = (m ((c : Thread nD τ).loc main_arg0) : S8192x4096.Idx → EReal) (ix2 (rowOf t p) o) := by
  obtain ⟨-, -, e0, e1, -⟩ := idx_facts t
  rw [← V_main_arg0 m c]
  show V m c main_arg0 (((cfg0.win 1).blk t).view.emb (ix2 p o)) = V m c main_arg0 (ix2 (rowOf t p) o)
  refine congrArg (V m c main_arg0 : S8192x4096.Idx → EReal) (funext fun a => Fin.ext ?_)
  match a with
  | ⟨0, _⟩ => show win0_1.index t (0 : Fin 2) * 256 + 1 * p.val = t.val * 256 + p.val; rw [e0]; omega
  | ⟨1, _⟩ => show win0_1.index t (1 : Fin 2) * 4096 + 1 * o.val = o.val; rw [e1]; omega

/-- The adapter-word block: the words of token rows `256·t + p`. -/
theorem blk_word (c : Dev nD) (t : Fin cfg0.N) (p : Fin 256) :
    (iblk m c 2 t : S256x1.Idx → BitVec 32) (ix2 p (0 : Fin 1))
      = (m ((c : Thread nD τ).loc main_arg4) : S8192.Idx → BitVec 32) (ix1 (rowOf t p)) := by
  obtain ⟨-, -, -, -, e0, e1, -⟩ := idx_facts t
  have h1 : (iblk m c 2 t : S256x1.Idx → BitVec 32) (ix2 p (0 : Fin 1))
      = (V m c main_v0 : S8192x1.Idx → BitVec 32) (ix2 (rowOf t p) (0 : Fin 1)) := by
    show V m c main_v0 (((cfg0.win 2).blk t).view.emb (ix2 p (0 : Fin 1))) = V m c main_v0 (ix2 (rowOf t p) (0 : Fin 1))
    refine congrArg (V m c main_v0 : S8192x1.Idx → BitVec 32) (funext fun a => Fin.ext ?_)
    match a with
    | ⟨0, _⟩ => show win0_2.index t (0 : Fin 2) * 256 + 1 * p.val = t.val * 256 + p.val; rw [e0]; omega
    | ⟨1, _⟩ => show win0_2.index t (1 : Fin 2) * 1 + 1 * 0 = 0; rw [e1]
  rw [h1, V_words m c shapeCasts_S8192_S8192x1]
  exact Cert.LibKeepdims.shapeCast_a_a1_apply _ _ (rowOf t p) 0

/-- The stacked shrink matrix's one block: column `i·16 + r` is rank column `r` of adapter `i`. -/
theorem blk_A (c : Dev nD) (t : Fin cfg0.N) (h : Fin 4096) (i : Fin 8) (r : Fin 16) (k : Fin 128)
    (hk : k.val = i.val * 16 + r.val) :
    (iblk m c 3 t : S4096x128.Idx → EReal) (ix2 h k)
      = (m ((c : Thread nD τ).loc main_arg2) : S8x4096x16.Idx → EReal) (ix3 i h r) := by
  obtain ⟨-, -, -, -, -, -, e0, e1, -⟩ := idx_facts t
  have h1 : (iblk m c 3 t : S4096x128.Idx → EReal) (ix2 h k) = (V m c main_v3 : S4096x128.Idx → EReal) (ix2 h k) := by
    show V m c main_v3 (((cfg0.win 3).blk t).view.emb (ix2 h k)) = V m c main_v3 (ix2 h k)
    refine congrArg (V m c main_v3 : S4096x128.Idx → EReal) (funext fun a => Fin.ext ?_)
    match a with
    | ⟨0, _⟩ => show win0_3.index t (0 : Fin 2) * 4096 + 1 * h.val = h.val; rw [e0]; omega
    | ⟨1, _⟩ => show win0_3.index t (1 : Fin 2) * 128 + 1 * k.val = k.val; rw [e1]; omega
  rw [h1, V_stackA m c transposes_S8x4096x16_S4096x8x16_1_0_2 shapeCasts_S4096x8x16_S4096x128 bitsLt_bf16_f32]
  exact Cert.LibWeightLayouts.flatten_apply_gen _ _ _ (by norm_num) h i r k hk

/-- The stacked expand matrix's one block: row `i·16 + r` is rank row `r` of adapter `i`. -/
theorem blk_B (c : Dev nD) (t : Fin cfg0.N) (i : Fin 8) (r : Fin 16) (k : Fin 128) (hk : k.val = i.val * 16 + r.val)
    (o : Fin 4096) :
    (iblk m c 4 t : S128x4096.Idx → EReal) (ix2 k o)
      = (m ((c : Thread nD τ).loc main_arg3) : S8x16x4096.Idx → EReal) (ix3 i r o) := by
  obtain ⟨-, -, -, -, -, -, -, -, e0, e1, -⟩ := idx_facts t
  have h1 : (iblk m c 4 t : S128x4096.Idx → EReal) (ix2 k o) = (V m c main_v5 : S128x4096.Idx → EReal) (ix2 k o) := by
    show V m c main_v5 (((cfg0.win 4).blk t).view.emb (ix2 k o)) = V m c main_v5 (ix2 k o)
    refine congrArg (V m c main_v5 : S128x4096.Idx → EReal) (funext fun a => Fin.ext ?_)
    match a with
    | ⟨0, _⟩ => show win0_4.index t (0 : Fin 2) * 128 + 1 * k.val = k.val; rw [e0]; omega
    | ⟨1, _⟩ => show win0_4.index t (1 : Fin 2) * 4096 + 1 * o.val = o.val; rw [e1]; omega
  rw [h1, V_stackB m c shapeCasts_S8x16x4096_S128x4096 bitsLt_bf16_f32]
  exact Cert.LibFlatten.shapeCast_abc_nc_apply _ _ i r o k hk

/-! ## What point `t` writes back, the cover, the run -/

/-- The specification of the launch memory's argument arrays. -/
abbrev spec (c : Dev nD) : S8192x4096.Idx → EReal :=
  update (m ((c : Thread nD τ).loc main_arg0)) (m ((c : Thread nD τ).loc main_arg1)) (m ((c : Thread nD τ).loc main_arg2))
    (m ((c : Thread nD τ).loc main_arg3)) (m ((c : Thread nD τ).loc main_arg4))

/-- Point `t` writes back block `t` of the specification. -/
theorem flushed_eq (c : Dev nD) (t : Fin cfg0.N) :
    (dats m 0 c).flushed 5 t = ((cfg0.win 5).blk t).view.read (Elt Ideal) (spec m c) := by
  rw [flushed5]
  unfold out0_5
  rw [View.canon_unit_zero hz]
  simp only [View.ld_unit_zero (S := S256x4096) hz, View.ld_unit_zero (S := S256x1) hz,
    View.ld_unit_zero (S := S4096x128) hz, View.ld_unit_zero (S := S128x4096) hz]
  funext j
  obtain ⟨p, o, rfl⟩ : ∃ (p : Fin 256) (o : Fin 4096), j = ix2 p o := ⟨j 0, j 1, eq_ix2 j⟩
  obtain ⟨-, -, -, -, -, -, -, -, -, -, e0, e1⟩ := idx_facts t
  have hemb : ((cfg0.win 5).blk t).view.emb (ix2 p o) = ix2 (rowOf t p) o := funext fun a => Fin.ext (by
    match a with
    | ⟨0, _⟩ => show win0_5.index t (0 : Fin 2) * 256 + 1 * p.val = t.val * 256 + p.val; rw [e0]; omega
    | ⟨1, _⟩ => show win0_5.index t (1 : Fin 2) * 4096 + 1 * o.val = o.val; rw [e1]; omega)
  show k0_pay1 (F := Ideal) (k0_pay2 (F := Ideal) (iblk m c 0 t) (iblk m c 2 t) (iblk m c 3 t) (iblk m c 4 t)) (iblk m c 1 t) (ix2 p o)
    = spec m c (((cfg0.win 5).blk t).view.emb (ix2 p o))
  rw [hemb, payload_apply (iblk m c 0 t) (iblk m c 1 t) (iblk m c 2 t) (iblk m c 3 t) (iblk m c 4 t) p o,
    blk_res m c t p o, blk_word m c t p]
  show _ = updateAt _ _ _ _ _ (rowOf t p) o
  refine stacked_row _ _ _ _ _ (rowOf t p) o _ fun i r k hk => ?_
  rw [blk_B m c t i r k hk o]
  refine congrArg (· * _) (congrArg₂ (· * ·) ?_ (kernel_mask _ i r k hk))
  exact Finset.sum_congr rfl fun h _ => by rw [blk_x m c t p h, blk_A m c t h i r k hk]

/-- An index of the array is in point `t`'s block iff each coordinate is in the block's range on its axis. -/
theorem mem_blk (t : Fin cfg0.N) (i : S8192x4096.Idx) :
    i ∈ ((cfg0.win 5).blk t).view.set ↔ ∀ a : Fin 2, win0_5.index t a * S256x4096.size a ≤ (i a).val
      ∧ (i a).val < win0_5.index t a * S256x4096.size a + S256x4096.size a := by
  show i ∈ ((View.whole main_v6).slice (win0_5.rect t)).set ↔ _
  rw [View.set_slice_whole, Rect.mem_set_unit]
  exact Iff.rfl

/-- Token row `r` is in the block of point `r / 256`: the written blocks cover the array. -/
theorem cover (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 32 := N_0
  let t : Fin cfg0.N := ⟨(i 0).val / 256, by rw [hN]; omega⟩
  obtain ⟨-, -, -, -, -, -, -, -, -, -, e0, e1⟩ := idx_facts t
  have ht : t.val = (i 0).val / 256 := rfl
  refine ⟨t, flush0_5 t, ?_⟩
  rw [mem_blk]
  intro a
  match a with
  | ⟨0, _⟩ =>
    show win0_5.index t (0 : Fin 2) * 256 ≤ (i 0).val ∧ (i 0).val < win0_5.index t (0 : Fin 2) * 256 + 256
    rw [e0, ht]; omega
  | ⟨1, _⟩ =>
    show win0_5.index t (1 : Fin 2) * 4096 ≤ (i 1).val ∧ (i 1).val < win0_5.index t (1 : Fin 2) * 4096 + 4096
    rw [e1]; omega

/-- The result array after the run is the specification. -/
theorem final (c : Dev nD) : (dats m 0 c).arrAt 5 cfg0.N = spec m c :=
  (dats m 0 c).arrAt_eq_of_cover 5 (spec m c) (fun t _ => flushed_eq m c t) cover

/-- The kernel's run: the result array at the specification of the argument arrays, the arguments unchanged. -/
theorem run : θ_run defs (onTc (τ := τ) (main (F := Ideal))) ⟨m, fun _ => 0, ρ⟩ fun r => ∀ c : Dev nD,
      r.2.mem ((c : Thread nD τ).loc main_v6) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.LoraBlocks

end
-- ==== Proof.LoraRef.lean ====
/-
  The reference, read at one entry of its result.

  The reference handles the 8 adapters one after the other. For adapter `n` it cuts the adapter's shrink matrix
  `A(n, ·, ·)` and expand matrix `B(n, ·, ·)` out of the stacks, multiplies `x` by the first and the product by the second,
  multiplies the result by the column of indicators "this token's adapter word is `n`", and adds it onto what it has so
  far, starting from `result`. On the extended reals each host matrix product is the plain sum of products, each cut and
  change of layout reads its operand at the evident coordinate, and the indicator column is 1 or 0. So the entry at token
  row `t` and column `o` is the `result` entry with the eight masked adapter products added one after the other: the
  specification's adapter-by-adapter reading.
-/
import proofs.«164024_j14139032338753_2_alg».proof.Proof.Gen.ReferenceIdeal.Read
import Idealize.ShloMosaic.Lib.ValueIdx
import Idealize.ShloMosaic.Lib.ValueLayout
import Idealize.ShloMosaic.Lib.StackMember
import Idealize.ShloMosaic.Lib.Pipeline.Value
import proofs.«164024_j14139032338753_2_alg».proof.Proof.LoraMask
import proofs.«164024_j14139032338753_2_alg».proof.Proof.LoraSpec

noncomputable section

namespace Cert.LoraRef

open Cert.ReferenceIdeal Cert.ReferenceIdeal.Read Idealize.ShloMosaic Idealize.ShloMosaic.ValueIdx
open Cert.LoraMask Cert.LoraSpec
open scoped BigOperators

/-- Both of a stanza's products are plain ones. -/
theorem shrink_dims : dot_S8192x4096_S4096x16_S8192x16_1_0_0_1_n_n = DotDims.plain 8192 4096 16 := rfl
theorem expand_dims : dot_S8192x16_S16x4096_S8192x4096_1_0_0_1_n_n = DotDims.plain 8192 16 4096 := rfl

variable (x1 : FVec Ideal S8192x4096 .f32) (x2 : FVec Ideal S8x4096x16 .f32) (x3 : FVec Ideal S8x16x4096 .f32)
  (x4 : IVec S8192 32)

/-- Adapter `n`'s matrix cut out of a stack `[8, a, b]` (offset `n` on the first axis, extent one) and laid out as
    `[a, b]`, at `(i, j)`: the stack's entry `(n, i, j)`. -/
theorem member_apply {a b : ℕ} (W : (⟨3, ![8, a, b]⟩ : Shape).Idx → EReal) (n : Fin 8) (off : ℕ) (hoff : off = n.val)
    (hs : (⟨3, ![8, a, b]⟩ : Shape).Slices ![off, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![off, 0, 0] W hs) hc (ix2 i j) = W (ix3 n i j) := by
  refine (shapeCast_1ab_ab_apply _ hc i j).trans ?_
  refine extractStridedSlice_apply _ W hs _ (ix3 n i j) fun ax => ?_
  match ax with
  | ⟨0, _⟩ => show n.val = off + 0; omega
  | ⟨1, _⟩ => show i.val = 0 + i.val; omega
  | ⟨2, _⟩ => show j.val = 0 + j.val; omega

/-- One adapter's masked product as the host computes it, at token row `t` and column `o`: the adapter's low-rank
    product times the indicator that the token's adapter word names it. -/
theorem stanza_apply (n : Fin 8) (off : ℕ) (w : BitVec 32) (hoff : off = n.val) (hw : w = BitVec.ofNat 32 n.val)
    (hA : S8x4096x16.Slices ![off, 0, 0] S1x4096x16) (hcA : S1x4096x16.ShapeCasts S4096x16)
    (hB : S8x16x4096.Slices ![off, 0, 0] S1x16x4096) (hcB : S1x16x4096.ShapeCasts S16x4096)
    (hb0 : S_.BroadcastsInDim S8192 ![]) (hb1 : S8192.BroadcastsInDim S8192x1 ![0])
    (hb2 : S8192x1.BroadcastsInDim S8192x4096 ![0, 1]) (t : Fin 8192) (o : Fin 4096) :
    mulf (F := Ideal)
        (Host.dotGeneral dot_S8192x16_S16x4096_S8192x4096_1_0_0_1_n_n none
          (Host.dotGeneral dot_S8192x4096_S4096x16_S8192x16_1_0_0_1_n_n none x1
            (shapeCast S4096x16 (extractStridedSlice S1x4096x16 ![off, 0, 0] x2 hA) hcA))
          (shapeCast S16x4096 (extractStridedSlice S1x16x4096 ![off, 0, 0] x3 hB) hcB))
        (broadcastInDim S8192x4096 ![0, 1] hb2
          (broadcastInDim S8192x1 ![0] hb1
            (uitofp .f32 (cmpi .eq x4 (broadcastInDim S8192 ![] hb0 (constantI S_ 32 w))))))
        (ix2 t o)
      = (∑ r : Fin 16, shrink x1 x2 t n r * x3 (ix3 n r o)) * sel (x4 (ix1 t)) n := by
  refine (mulf_apply (s := S8192x4096) (φ := .f32) _ _ (ix2 t o)).trans ?_
  refine congrArg₂ (· * ·) ?_ ?_
  · refine (StackMember.dotGeneral_plain_apply none _ _ t o).trans ?_
    refine Finset.sum_congr rfl fun r _ => congrArg₂ (· * ·) ?_ (member_apply x3 n off hoff hB hcB r o)
    refine (StackMember.dotGeneral_plain_apply none _ _ t r).trans ?_
    exact Finset.sum_congr rfl fun h _ => congrArg (x1 (ix2 t h) * ·) (member_apply x2 n off hoff hA hcA h r)
  · refine (broadcastInDim_apply _ hb2 _ (ix2 t o) (ix2 t (0 : Fin 1)) fun ax => ?_).trans ?_
    · match ax with
      | ⟨0, _⟩ => show t.val = if (8192 : ℕ) = 1 then 0 else t.val; rw [if_neg (by decide)]
      | ⟨1, _⟩ => show (0 : ℕ) = if (1 : ℕ) = 1 then 0 else o.val; rw [if_pos rfl]
    refine (broadcastInDim_apply _ hb1 _ (ix2 t (0 : Fin 1)) (ix1 t) fun ax => ?_).trans ?_
    · match ax with
      | ⟨0, _⟩ => show t.val = if (8192 : ℕ) = 1 then 0 else t.val; rw [if_neg (by decide)]
    show FloatOps.uitofp (F := Ideal) .f32
      (IntOp.cmpi .eq (x4 (ix1 t)) (broadcastInDim S8192 ![] hb0 (constantI S_ 32 w) (ix1 t))) = _
    rw [broadcastInDim_apply _ hb0 (constantI S_ 32 w) (ix1 t) ix0 (fun ax => ax.elim0)]
    exact host_mask (x4 (ix1 t)) w n hw

/-! The eight stanzas: each is the one above with its adapter number. -/

theorem term0 (t : Fin 8192) (o : Fin 4096) :
    val_main_v11 (F := Ideal) x1 x2 x3 x4 (ix2 t o)
      = (∑ r : Fin 16, shrink x1 x2 t (0 : Fin 8) r * x3 (ix3 (0 : Fin 8) r o)) * sel (x4 (ix1 t)) (0 : Fin 8) := by
  unfold val_main_v11 val_main_v9 val_main_v6 val_main_v5 val_main_v4 val_main_v8 val_main_v7 val_main_v10 val_main_v3 val_main_v2 val_main_v1 val_main_v0 val_main_c
  exact stanza_apply x1 x2 x3 x4 (0 : Fin 8) 0 0#32 rfl rfl _ _ _ _ _ _ _ t o

theorem term1 (t : Fin 8192) (o : Fin 4096) :
    val_main_v24 (F := Ideal) x1 x2 x3 x4 (ix2 t o)
      = (∑ r : Fin 16, shrink x1 x2 t (1 : Fin 8) r * x3 (ix3 (1 : Fin 8) r o)) * sel (x4 (ix1 t)) (1 : Fin 8) := by
  unfold val_main_v24 val_main_v22 val_main_v19 val_main_v18 val_main_v17 val_main_v21 val_main_v20 val_main_v23 val_main_v16 val_main_v15 val_main_v14 val_main_v13 val_main_c_0
  exact stanza_apply x1 x2 x3 x4 (1 : Fin 8) 1 1#32 rfl rfl _ _ _ _ _ _ _ t o

theorem term2 (t : Fin 8192) (o : Fin 4096) :
    val_main_v37 (F := Ideal) x1 x2 x3 x4 (ix2 t o)
      = (∑ r : Fin 16, shrink x1 x2 t (2 : Fin 8) r * x3 (ix3 (2 : Fin 8) r o)) * sel (x4 (ix1 t)) (2 : Fin 8) := by
  unfold val_main_v37 val_main_v35 val_main_v32 val_main_v31 val_main_v30 val_main_v34 val_main_v33 val_main_v36 val_main_v29 val_main_v28 val_main_v27 val_main_v26 val_main_c_1
  exact stanza_apply x1 x2 x3 x4 (2 : Fin 8) 2 2#32 rfl rfl _ _ _ _ _ _ _ t o

theorem term3 (t : Fin 8192) (o : Fin 4096) :
    val_main_v50 (F := Ideal) x1 x2 x3 x4 (ix2 t o)
      = (∑ r : Fin 16, shrink x1 x2 t (3 : Fin 8) r * x3 (ix3 (3 : Fin 8) r o)) * sel (x4 (ix1 t)) (3 : Fin 8) := by
  unfold val_main_v50 val_main_v48 val_main_v45 val_main_v44 val_main_v43 val_main_v47 val_main_v46 val_main_v49 val_main_v42 val_main_v41 val_main_v40 val_main_v39 val_main_c_2
  exact stanza_apply x1 x2 x3 x4 (3 : Fin 8) 3 3#32 rfl rfl _ _ _ _ _ _ _ t o

theorem term4 (t : Fin 8192) (o : Fin 4096) :
    val_main_v63 (F := Ideal) x1 x2 x3 x4 (ix2 t o)
      = (∑ r : Fin 16, shrink x1 x2 t (4 : Fin 8) r * x3 (ix3 (4 : Fin 8) r o)) * sel (x4 (ix1 t)) (4 : Fin 8) := by
  unfold val_main_v63 val_main_v61 val_main_v58 val_main_v57 val_main_v56 val_main_v60 val_main_v59 val_main_v62 val_main_v55 val_main_v54 val_main_v53 val_main_v52 val_main_c_3
  exact stanza_apply x1 x2 x3 x4 (4 : Fin 8) 4 4#32 rfl rfl _ _ _ _ _ _ _ t o

theorem term5 (t : Fin 8192) (o : Fin 4096) :
    val_main_v76 (F := Ideal) x1 x2 x3 x4 (ix2 t o)
      = (∑ r : Fin 16, shrink x1 x2 t (5 : Fin 8) r * x3 (ix3 (5 : Fin 8) r o)) * sel (x4 (ix1 t)) (5 : Fin 8) := by
  unfold val_main_v76 val_main_v74 val_main_v71 val_main_v70 val_main_v69 val_main_v73 val_main_v72 val_main_v75 val_main_v68 val_main_v67 val_main_v66 val_main_v65 val_main_c_4
  exact stanza_apply x1 x2 x3 x4 (5 : Fin 8) 5 5#32 rfl rfl _ _ _ _ _ _ _ t o

theorem term6 (t : Fin 8192) (o : Fin 4096) :
    val_main_v89 (F := Ideal) x1 x2 x3 x4 (ix2 t o)
      = (∑ r : Fin 16, shrink x1 x2 t (6 : Fin 8) r * x3 (ix3 (6 : Fin 8) r o)) * sel (x4 (ix1 t)) (6 : Fin 8) := by
  unfold val_main_v89 val_main_v87 val_main_v84 val_main_v83 val_main_v82 val_main_v86 val_main_v85 val_main_v88 val_main_v81 val_main_v80 val_main_v79 val_main_v78 val_main_c_5
  exact stanza_apply x1 x2 x3 x4 (6 : Fin 8) 6 6#32 rfl rfl _ _ _ _ _ _ _ t o

theorem term7 (t : Fin 8192) (o : Fin 4096) :
    val_main_v102 (F := Ideal) x1 x2 x3 x4 (ix2 t o)
      = (∑ r : Fin 16, shrink x1 x2 t (7 : Fin 8) r * x3 (ix3 (7 : Fin 8) r o)) * sel (x4 (ix1 t)) (7 : Fin 8) := by
  unfold val_main_v102 val_main_v100 val_main_v97 val_main_v96 val_main_v95 val_main_v99 val_main_v98 val_main_v101 val_main_v94 val_main_v93 val_main_v92 val_main_v91 val_main_c_6
  exact stanza_apply x1 x2 x3 x4 (7 : Fin 8) 7 7#32 rfl rfl _ _ _ _ _ _ _ t o

/-- The reference's result array is the specification. -/
theorem reference_eq (x0 : FVec Ideal S8192x4096 .f32) :
    val_main_v103 (F := Ideal) x0 x1 x2 x3 x4 = update x0 x1 x2 x3 x4 := by
  funext j
  obtain ⟨t, o, rfl⟩ : ∃ (t : Fin 8192) (o : Fin 4096), j = ix2 t o := ⟨j 0, j 1, eq_ix2 j⟩
  rw [update_apply]
  refine Eq.trans ?_ (nested_row x0 x1 x2 x3 x4 t o
    (fun n => (∑ r : Fin 16, shrink x1 x2 t n r * x3 (ix3 n r o)) * sel (x4 (ix1 t)) n) (fun _ => rfl))
  show x0 (ix2 t o) + val_main_v11 (F := Ideal) x1 x2 x3 x4 (ix2 t o) + val_main_v24 (F := Ideal) x1 x2 x3 x4 (ix2 t o)
      + val_main_v37 (F := Ideal) x1 x2 x3 x4 (ix2 t o) + val_main_v50 (F := Ideal) x1 x2 x3 x4 (ix2 t o)
      + val_main_v63 (F := Ideal) x1 x2 x3 x4 (ix2 t o) + val_main_v76 (F := Ideal) x1 x2 x3 x4 (ix2 t o)
      + val_main_v89 (F := Ideal) x1 x2 x3 x4 (ix2 t o) + val_main_v102 (F := Ideal) x1 x2 x3 x4 (ix2 t o) = _
  rw [term0, term1, term2, term3, term4, term5, term6, term7]

end Cert.LoraRef

end
-- ==== Proof.lean ====
/-
  A low-rank adapter update selected per token: the kernel against its reference, on the extended reals.

  For each of 8192 tokens the reference adds to `result` the product `(x · A_n) · B_n` of the one adapter `n` (of 8, of
  rank 16) that the token's adapter word names; it does so adapter by adapter, multiplying each adapter's product by the
  0/1 column "this token uses adapter `n`" and adding the eight results in order. The kernel works on blocks of 256
  tokens: it stacks the 8 shrink matrices side by side into one 4096 × 128 matrix and the 8 expand matrices one under the
  other into one 128 × 4096 matrix, multiplies the block by the first, zeroes in each row the 16-column groups of the
  adapters the token does not use, multiplies by the second and adds `result`.

  On the extended reals a change of float format is the identity and each matrix product is the plain sum of products, so
  at token row `t` and column `o` both programs hold

      result(t, o) + ∑ n < 8, (∑ r < 16, (∑ h < 4096, x(t, h) · A(n, h, r)) · B(n, r, o)) · [word(t) = n].

  The kernel's single sum over the 128 stacked positions `n · 16 + r` splits into the sum over `n` of the sums over `r`,
  and a factor that is 0 or 1 moves across a sum of products on every extended real, infinite entries included; so the
  equality needs no finiteness of the inputs. A token whose adapter word names no adapter keeps its `result` entry in
  both programs. The three frames are the generated ones (the reference's is its generated run with the result
  dropped), and the idealization changed no operation, so there is nothing to preserve.
-/
import proofs.«164024_j14139032338753_2_alg».proof.Defs
import proofs.«164024_j14139032338753_2_alg».proof.Proof.Gen.Kernel
import proofs.«164024_j14139032338753_2_alg».proof.Proof.Gen.Kernel.Frame
import proofs.«164024_j14139032338753_2_alg».proof.Proof.Gen.KernelIdeal
import proofs.«164024_j14139032338753_2_alg».proof.Proof.Gen.KernelIdeal.Frame
import proofs.«164024_j14139032338753_2_alg».proof.Proof.Gen.ReferenceIdeal
import proofs.«164024_j14139032338753_2_alg».proof.Proof.Gen.Pre_finite_inputs
import proofs.«164024_j14139032338753_2_alg».proof.Proof.Gen.KernelIdeal.Value
import proofs.«164024_j14139032338753_2_alg».proof.Proof.Gen.ReferenceIdeal.Run
import proofs.«164024_j14139032338753_2_alg».proof.Proof.Gen.ReferenceIdeal.Read
import proofs.«164024_j14139032338753_2_alg».proof.Proof.LoraBlocks
import proofs.«164024_j14139032338753_2_alg».proof.Proof.LoraRef

noncomputable section

namespace Cert.Proof

open Idealize.ShloMosaic Idealize.SL.Sem

/-- The kernel as printed runs, faults nowhere and leaves its arguments as they were. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at the same function of the
    arguments: the kernel's blocks assemble to it, and the reference's eight additions are its adapter-by-adapter
    reading. -/
theorem algebraic : Cert.algebraic_KernelIdeal_ReferenceIdeal := by
  intro m ρ m' ρ' _ hagree
  refine ⟨fun c => Cert.LoraBlocks.spec m c, Cert.LoraBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v103_eq, Cert.LoraRef.reference_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
